-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  main_v18

def fn {F : FTy → Type} [FloatOps F] (main_arg0 : FVec F S50000x64 .f32) (main_arg1 : IVec S2x800000 32) (main_arg2 : FVec F S128x64 .f32) (main_arg3 : FVec F S128 .f32) (main_arg4 : FVec F S128x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_v13 main_v16
-- ==== Kernel.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S64x128 : Shape := ⟨2, ![64, 128]⟩
abbrev S50000x128 : Shape := ⟨2, ![50000, 128]⟩
abbrev S5000x64 : Shape := ⟨2, ![5000, 64]⟩
abbrev S5000x128 : Shape := ⟨2, ![5000, 128]⟩
abbrev S1x128 : Shape := ⟨2, ![1, 128]⟩

abbrev nBuf : Space → Nat
  | .hbm => 37
  | .vmem => 9
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x64, .f32⟩
  | .hbm, ⟨33, _⟩ => ⟨S50000x64, .f32⟩
  | .hbm, ⟨34, _⟩ => ⟨S64x128, .f32⟩
  | .hbm, ⟨35, _⟩ => ⟨S64x128, .f32⟩
  | .hbm, ⟨36, _⟩ => ⟨S50000x128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S128x64_S64x128_1_0 : S128x64.Transposes [1, 0] S64x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S64x128 : Shape := ⟨2, ![64, 128]⟩
abbrev S50000x128 : Shape := ⟨2, ![50000, 128]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x64, .f32⟩
  | .hbm, ⟨34, _⟩ => ⟨S50000x64, .f32⟩
  | .hbm, ⟨35, _⟩ => ⟨S64x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S64x128, .f32⟩
  | .hbm, ⟨41, _⟩ => ⟨S50000x128, .f32⟩
  | .hbm, ⟨42, _⟩ => ⟨S50000x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S128x64_S64x128_1_0 : S128x64.Transposes [1, 0] S64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x128_S50000x128_1_0_0_1_n_n_wf : DotDims.WF S50000x64 S64x128 S50000x128 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf

class Facts : Prop extends Facts₀ where

variable [Facts]
-- ==== Proof.KernelBlocks.lean ====
/-
  How the ten grid points cut the arrays into blocks. Point t of the grid reads rows 5000·t … 5000·t + 4999 of the
  node features and of the neighbour means, reads the two transposed weight matrices and the bias whole, and writes
  rows 5000·t … 5000·t + 4999 of the output. Each lemma below reads one window's block of an ARBITRARY array at a
  coordinate inside the block as the array at the matching coordinate.
-/
import proofs.«163744_j60112362275091_1_alg».proof.Proof.Gen.KernelIdeal.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

/-- The printed index maps, decided over the ten points: the features, the means and the output move together, one
    block of rows per point; the weights and the bias stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row p of point t's block of a [50000, 64] array in the first window is row 5000·t + p of the array. -/
theorem rows0 (G : FVec Ideal S50000x64 .f32) (t : Fin cfg0.N) (p : Fin 5000) (k : Fin 64) (P : Fin 50000)
    (hP : P.val = t.val * 5000 + p.val) :
    ((cfg0.win 0).blk t).view.read (Elt Ideal) G (ix2 p k) = G (ix2 P k) := by
  obtain ⟨e00, e01, -⟩ := idx_facts t
  show G (((cfg0.win 0).blk t).view.emb (ix2 p k)) = _
  refine congrArg G (funext fun a => Fin.ext ?_)
  match a with
  | ⟨0, _⟩ => show win0_0.index t (0 : Fin 2) * 5000 + 1 * p.val = P.val; omega
  | ⟨1, _⟩ => show win0_0.index t (1 : Fin 2) * 64 + 1 * k.val = k.val; omega

/-- The same for the second window. -/
theorem rows1 (G : FVec Ideal S50000x64 .f32) (t : Fin cfg0.N) (p : Fin 5000) (k : Fin 64) (P : Fin 50000)
    (hP : P.val = t.val * 5000 + p.val) :
    ((cfg0.win 1).blk t).view.read (Elt Ideal) G (ix2 p k) = G (ix2 P k) := by
  obtain ⟨-, -, e10, e11, -⟩ := idx_facts t
  show G (((cfg0.win 1).blk t).view.emb (ix2 p k)) = _
  refine congrArg G (funext fun a => Fin.ext ?_)
  match a with
  | ⟨0, _⟩ => show win0_1.index t (0 : Fin 2) * 5000 + 1 * p.val = P.val; omega
  | ⟨1, _⟩ => show win0_1.index t (1 : Fin 2) * 64 + 1 * k.val = k.val; omega

/-- The third window's one block is its whole [64, 128] array. -/
theorem whole2 (G : FVec Ideal S64x128 .f32) (t : Fin cfg0.N) (k : Fin 64) (n : Fin 128) :
    ((cfg0.win 2).blk t).view.read (Elt Ideal) G (ix2 k n) = G (ix2 k n) := by
  obtain ⟨-, -, -, -, e20, e21, -⟩ := idx_facts t
  show G (((cfg0.win 2).blk t).view.emb (ix2 k n)) = _
  refine congrArg G (funext fun a => Fin.ext ?_)
  match a with
  | ⟨0, _⟩ => show win0_2.index t (0 : Fin 2) * 64 + 1 * k.val = k.val; omega
  | ⟨1, _⟩ => show win0_2.index t (1 : Fin 2) * 128 + 1 * n.val = n.val; omega

/-- The fourth window's one block is its whole [64, 128] array. -/
theorem whole3 (G : FVec Ideal S64x128 .f32) (t : Fin cfg0.N) (k : Fin 64) (n : Fin 128) :
    ((cfg0.win 3).blk t).view.read (Elt Ideal) G (ix2 k n) = G (ix2 k n) := by
  obtain ⟨-, -, -, -, -, -, e30, e31, -⟩ := idx_facts t
  show G (((cfg0.win 3).blk t).view.emb (ix2 k n)) = _
  refine congrArg G (funext fun a => Fin.ext ?_)
  match a with
  | ⟨0, _⟩ => show win0_3.index t (0 : Fin 2) * 64 + 1 * k.val = k.val; omega
  | ⟨1, _⟩ => show win0_3.index t (1 : Fin 2) * 128 + 1 * n.val = n.val; omega

/-- The fifth window's one block is its whole 128-vector. -/
theorem whole4 (G : FVec Ideal S128 .f32) (t : Fin cfg0.N) (n : Fin 128) :
    ((cfg0.win 4).blk t).view.read (Elt Ideal) G (ix1 n) = G (ix1 n) := by
  obtain ⟨-, -, -, -, -, -, -, -, e40, -⟩ := idx_facts t
  show G (((cfg0.win 4).blk t).view.emb (ix1 n)) = _
  refine congrArg G (funext fun a => Fin.ext ?_)
  match a with
  | ⟨0, _⟩ => show win0_4.index t (0 : Fin 1) * 128 + 1 * n.val = n.val; omega

/-- Point t's block of a [50000, 128] array in the output window, read at a coordinate of the block, is the array at
    the coordinate the block places it at. -/
theorem out_read (G : FVec Ideal S50000x128 .f32) (t : Fin cfg0.N) (y : ((cfg0.win 5).xblock (grid0.coords t)).Idx) :
    ((cfg0.win 5).blk t).view.read (Elt Ideal) G y = G (((cfg0.win 5).blk t).view.emb y) := rfl

/-- That coordinate: row 5000·t + the row inside the block, the same channel. -/
theorem out_emb (t : Fin cfg0.N) (y : ((cfg0.win 5).xblock (grid0.coords t)).Idx) :
    ((((cfg0.win 5).blk t).view.emb y) 0).val = t.val * 5000 + (((cfg0.win 5).xinj (grid0.coords t) y) 0).val
    ∧ ((((cfg0.win 5).blk t).view.emb y) 1).val = (((cfg0.win 5).xinj (grid0.coords t) y) 1).val := by
  obtain ⟨-, -, -, -, -, -, -, -, -, e50, e51⟩ := idx_facts t
  constructor
  · show win0_5.index t (0 : Fin 2) * 5000 + 1 * (y 0).val = t.val * 5000 + (y 0).val
    omega
  · show win0_5.index t (1 : Fin 2) * 128 + 1 * (y 1).val = (y 1).val
    omega

/-- An entry of the output array is in point t's block iff its row is one of the block's 5000 rows. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v25).slice (win0_5.rect t)).set ↔ _
  rw [View.set_slice_whole, Rect.mem_set_unit]
  exact Iff.rfl

/-- Every block of rows is some point's. -/
theorem idx_onto : ∀ q : Fin 10, ∃ t : Fin cfg0.N, win0_5.index t = ![q.val, 0] :=
  (by decide +kernel : ∀ q : Fin 10, ∃ t : Fin grid0.N, win0_5.index t = ![q.val, 0])

/-- THE TEN BLOCKS TILE THE OUTPUT: row P lies in the block of point P / 5000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

end Cert.KernelIdeal.Blocks

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.KernelEntry.lean ====
/-
  What the kernel's body stores, entry by entry, on the extended reals. From a block of 5000 rows of the node features
  (x0) and of the neighbour means (x1), the two transposed [64, 128] weight matrices (x2 for the means, x3 for the
  features) and the 128 biases (x4), entry (p, n) of the stored block is

      (∑ₖ x1[p, k] · x2[k, n]  +  ∑ₖ x0[p, k] · x3[k, n])  +  x4[n].

  The narrowing of every factor to a shorter float format is the identity on the extended reals, each matrix product
  into a zero accumulator is its 64-term sum, and the bias row is repeated over the 5000 rows.
-/
import proofs.«163744_j60112362275091_1_alg».proof.Proof.Gen.KernelIdeal.Skeleton
import proofs.«163744_j60112362275091_1_alg».proof.Proof.LibMatmulPlain
import Idealize.ShloMosaic.Lib.ValueIdx
import Idealize.ShloMosaic.Lib.ValueLayout
import Idealize.ShloMosaic.Lib.Pipeline.Value

noncomputable section

namespace Cert.KernelIdeal.Entry

open Cert.KernelIdeal Cert.KernelIdeal.Gen Idealize.ShloMosaic Idealize.ShloMosaic.ValueIdx

/-- One of the body's two matrix products at entry (p, n): the 64-term sum of products (the record the program prints
    for it is the plain contraction of the left factor's columns with the right factor's rows). -/
theorem product_apply (l : FVec Ideal S5000x64 .bf16) (r : FVec Ideal S64x128 .bf16) (p : Fin 5000) (n : Fin 128) :
    matmul dot_S5000x64_S64x128_S5000x128_1_0_0_1_n_n none l r (constant S5000x128 .f32 0x00000000#32) (ix2 p n)
      = ∑ k : Fin 64, l (ix2 p k) * r (ix2 k n) :=
  Cert.LibMatmulPlain.matmul_zero_apply (M := 5000) (K := 64) (N := 128)
    Facts₀.dot_S5000x64_S64x128_S5000x128_1_0_0_1_n_n_wf none l r p n

/-- The bias, cast to one row and repeated over the rows, read at (p, n) is the bias at n. -/
theorem bias_apply (x4 : FVec Ideal S128 .f32) (p : Fin 5000) (n : Fin 128) :
    broadcastTo S5000x128 (shapeCast S1x128 x4 Facts₀.shapeCasts_S128_S1x128) Facts₀.broadcasts_S1x128_S5000x128 (ix2 p n)
      = x4 (ix1 n) :=
  (broadcastTo_1b_ab_apply _ Facts₀.broadcasts_S1x128_S5000x128 p n).trans
    (shapeCast_a_1a_apply x4 Facts₀.shapeCasts_S128_S1x128 0 n)

/-- The stored block at entry (p, n). -/
theorem pay_apply (x0 x1 : Vec Ideal S5000x64 .f32) (x2 x3 : Vec Ideal S64x128 .f32) (x4 : Vec Ideal S128 .f32)
    (p : Fin 5000) (n : Fin 128) :
    k0_pay1 (F := Ideal) x0 x1 x2 x3 x4 (ix2 p n)
      = (∑ k : Fin 64, x1 (ix2 p k) * x2 (ix2 k n) + ∑ k : Fin 64, x0 (ix2 p k) * x3 (ix2 k n)) + x4 (ix1 n) := by
  unfold k0_pay1
  refine congrArg₂ (· + ·) (congrArg₂ (· + ·) ?_ ?_) (bias_apply x4 p n)
  · refine (product_apply _ _ p n).trans (Finset.sum_congr rfl fun k _ => ?_)
    rw [shapeCast_self, shapeCast_self]
    rfl
  · refine (product_apply _ _ p n).trans (Finset.sum_congr rfl fun k _ => ?_)
    rw [shapeCast_self]
    rfl

end Cert.KernelIdeal.Entry

end
-- ==== Proof.Combine.lean ====
/-
  One GraphSAGE layer's combining step on the extended reals. With `mean` the [50000, 64] matrix of neighbour means,
  `x` the [50000, 64] node features, `wl` and `wr` the two [128, 64] weight matrices and `bl` the 128 biases, the
  output entry at node p and channel n is

      (∑ₖ mean[p, k] · wl[n, k]  +  ∑ₖ x[p, k] · wr[n, k])  +  bl[n],

  each sum over the 64 input channels. Both programs compute these three terms and differ only in the order in which
  they add them, so the only law needed is that addition of extended reals is commutative and associative, which
  holds at the infinities too: no finiteness of the inputs is used.
-/
import Idealize.ShloMosaic.PureOps.Ideal.Laws
import Idealize.ShloMosaic.Lib.ValueIdx

noncomputable section

namespace Cert.SageCombine

open Idealize.ShloMosaic Idealize.ShloMosaic.ValueIdx

/-- The combined output as one function of the five arrays, entry by entry. -/
def combine (x mean : FVec Ideal ⟨2, ![50000, 64]⟩ .f32) (wl wr : FVec Ideal ⟨2, ![128, 64]⟩ .f32)
    (bl : FVec Ideal ⟨1, ![128]⟩ .f32) : FVec Ideal ⟨2, ![50000, 128]⟩ .f32 :=
  fun j => (∑ k : Fin 64, mean (ix2 (j 0) k) * wl (ix2 (j 1) k) + ∑ k : Fin 64, x (ix2 (j 0) k) * wr (ix2 (j 1) k))
    + bl (ix1 (j 1))

/-- The same entry written at explicit coordinates. -/
theorem combine_apply (x mean : FVec Ideal ⟨2, ![50000, 64]⟩ .f32) (wl wr : FVec Ideal ⟨2, ![128, 64]⟩ .f32)
    (bl : FVec Ideal ⟨1, ![128]⟩ .f32) (p : Fin 50000) (n : Fin 128) :
    combine x mean wl wr bl (ix2 p n)
      = (∑ k : Fin 64, mean (ix2 p k) * wl (ix2 n k) + ∑ k : Fin 64, x (ix2 p k) * wr (ix2 n k)) + bl (ix1 n) := rfl

/-- Adding the bias before the second product or after it gives the same extended real. -/
theorem bias_last (a b c : EReal) : a + c + b = a + b + c := add_right_comm a c b

/-- The larger of two extended reals does not depend on their order, entry by entry. -/
theorem maximumf_comm {s : Shape} (a b : FVec Ideal s .f32) : maximumf a b = maximumf b a :=
  funext fun i => max_comm (a i) (b i)

end Cert.SageCombine

end
-- ==== Proof.KernelHost.lean ====
/-
  What the kernel's host code hands to the combining region. Before the region the program gathers the source
  nodes' feature rows, adds them up per destination node, counts each node's incoming edges, divides each row sum by
  the larger of the count and one, and transposes the two weight matrices. The matrix of neighbour means it hands
  over is the reference's own: the two programs spell it with the same operations on the same inputs, except that the
  reference takes the larger of (one, count) where the kernel takes the larger of (count, one).
-/
import proofs.«163744_j60112362275091_1_alg».proof.Proof.Gen.KernelIdeal.Frame
import proofs.«163744_j60112362275091_1_alg».proof.Proof.Gen.ReferenceIdeal.Read
import proofs.«163744_j60112362275091_1_alg».proof.Proof.Combine
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The kernel's matrix of neighbour means, as its host operations compute it from the node features and the edge
    list. -/
def kmean (x0 : FVec Ideal S50000x64 .f32) (x1 : (⟨S2x800000, .i32⟩ : BufTy).Contents (Elt Ideal)) :
    FVec Ideal S50000x64 .f32 :=
  Host.divf
    (Host.scatterAdd scatter_S50000x64_S800000x1_S800000x64_1_0_0_1
      (broadcastInDim S50000x64 ![] Facts₀.bcast_S_S50000x64 (constant (F := Ideal) S_ .f32 0x00000000#32))
      (broadcastInDim S800000x1 ![0] Facts₀.bcast_S800000_S800000x1_0
        (shapeCast _ (extractStridedSlice S1x800000 ![1, 0] x1 Facts₀.slices_S2x800000_S1x800000_1_0) Facts₀.shapeCasts_S1x800000_S800000))
      (Host.gather gather_S50000x64_S800000x1_S800000x64_1_0_n_n_0_1_164 x0
        (broadcastInDim S800000x1 ![0] Facts₀.bcast_S800000_S800000x1_0
          (select
            (cmpi .slt (shapeCast _ (extractStridedSlice S1x800000 ![0, 0] x1 Facts₀.slices_S2x800000_S1x800000_0_0) Facts₀.shapeCasts_S1x800000_S800000)
              (broadcastInDim S800000 ![] Facts₀.bcast_S_S800000 (constantI S_ 32 0#32)))
            (addi (shapeCast _ (extractStridedSlice S1x800000 ![0, 0] x1 Facts₀.slices_S2x800000_S1x800000_0_0) Facts₀.shapeCasts_S1x800000_S800000)
              (broadcastInDim S800000 ![] Facts₀.bcast_S_S800000 (constantI S_ 32 50000#32)))
            (shapeCast _ (extractStridedSlice S1x800000 ![0, 0] x1 Facts₀.slices_S2x800000_S1x800000_0_0) Facts₀.shapeCasts_S1x800000_S800000)))))
    (broadcastInDim S50000x64 ![0, 1] Facts₀.bcast_S50000x1_S50000x64_0_1
      (broadcastInDim S50000x1 ![0] Facts₀.bcast_S50000_S50000x1_0
        (maximumf
          (Host.scatterAdd scatter_S50000_S800000x1_S800000_n_0_0_1
            (broadcastInDim S50000 ![] Facts₀.bcast_S_S50000 (constant (F := Ideal) S_ .f32 0x00000000#32))
            (broadcastInDim S800000x1 ![0] Facts₀.bcast_S800000_S800000x1_0
              (shapeCast _ (extractStridedSlice S1x800000 ![1, 0] x1 Facts₀.slices_S2x800000_S1x800000_1_0) Facts₀.shapeCasts_S1x800000_S800000))
            (broadcastInDim S800000 ![] Facts₀.bcast_S_S800000 (constant (F := Ideal) S_ .f32 0x3F800000#32)))
          (broadcastInDim S50000 ![] Facts₀.bcast_S_S50000 (constant (F := Ideal) S_ .f32 0x3F800000#32)))))

set_option maxHeartbeats 2000000 in
/-- The region finds the neighbour means in its second window's array. -/
theorem V_mean (c : Dev nD) :
    (V m c main_v22 : FVec Ideal S50000x64 .f32)
      = kmean (m ((c : Thread nD τ).loc main_arg0)) (m ((c : Thread nD τ).loc main_arg1)) := by
  dsimp only [Gen.V, Gen.hostOps0]
  after_results_simp <;> rfl

/-- The region finds the first weight matrix transposed in its third window's array. -/
theorem V_wl (c : Dev nD) :
    (V m c main_v23 : FVec Ideal S64x128 .f32)
      = transpose S64x128 [1, 0] (m ((c : Thread nD τ).loc main_arg2)) Facts₀.transposes_S128x64_S64x128_1_0 := by
  dsimp only [Gen.V, Gen.hostOps0]
  after_results

/-- The region finds the second weight matrix transposed in its fourth window's array. -/
theorem V_wr (c : Dev nD) :
    (V m c main_v24 : FVec Ideal S64x128 .f32)
      = transpose S64x128 [1, 0] (m ((c : Thread nD τ).loc main_arg4)) Facts₀.transposes_S128x64_S64x128_1_0 := by
  dsimp only [Gen.V, Gen.hostOps0]
  after_results

/-- The kernel's neighbour means are the reference's. -/
theorem kmean_eq (x0 : FVec Ideal S50000x64 .f32) (x1 : (⟨S2x800000, .i32⟩ : BufTy).Contents (Elt Ideal)) :
    kmean x0 x1 = Cert.ReferenceIdeal.Read.val_main_v21 (F := Ideal) x0 x1 := by
  unfold kmean
  rw [Cert.SageCombine.maximumf_comm]
  rfl

end Cert.KernelIdeal.HostValue

end
-- ==== Proof.KernelWhole.lean ====
/-
  The kernel's result array as one function of the arguments. Point t of the grid works on rows 5000·t … 5000·t + 4999
  (KernelBlocks.lean); an entry of the block it writes is the combining step's entry of Combine.lean at the same node
  and channel (KernelEntry.lean for the body's arithmetic, KernelHost.lean for what the host code hands over), and the
  ten blocks tile the [50000, 128] output, so after the run the output array is the combining step of the whole
  arrays.
-/
import proofs.«163744_j60112362275091_1_alg».proof.Proof.Gen.KernelIdeal.Value
import proofs.«163744_j60112362275091_1_alg».proof.Proof.KernelBlocks
import proofs.«163744_j60112362275091_1_alg».proof.Proof.KernelEntry
import proofs.«163744_j60112362275091_1_alg».proof.Proof.KernelHost
import proofs.«163744_j60112362275091_1_alg».proof.Proof.Combine
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.SageCombine

variable (m : (ℓ : Loc nD τ sig) → Buf (Elt Ideal) ℓ) (ρ : Dev nD → PrngReg)

theorem zero_off2 : (![0, 0] : Fin 2 → Nat) = fun _ => 0 := funext fun a => by fin_cases a <;> rfl
theorem zero_off1 : (![0] : Fin 1 → Nat) = fun _ => 0 := funext fun a => by fin_cases a <;> rfl

/-- ONE ENTRY OF ONE BLOCK. If a 5000-row block of the features (x0) and of the means (x1) are rows r·5000 … of the
    whole matrices, the transposed weights (x2, x3) are the weights with coordinates swapped, and the bias block is the
    bias, then the block the body stores, at row p and channel n, is the combining step at node r·5000 + p and
    channel n. -/
theorem block_entry (X MEAN : FVec Ideal S50000x64 .f32) (WL WR : FVec Ideal S128x64 .f32) (BL : FVec Ideal S128 .f32)
    (x0 x1 : Vec Ideal S5000x64 .f32) (x2 x3 : Vec Ideal S64x128 .f32) (x4 : Vec Ideal S128 .f32) (r : Nat)
    (y : S5000x128.Idx) (i : S50000x128.Idx)
    (hi0 : (i 0).val = r * 5000 + (y 0).val) (hi1 : (i 1).val = (y 1).val)
    (h0 : ∀ (p : Fin 5000) (k : Fin 64) (P : Fin 50000), P.val = r * 5000 + p.val → x0 (ix2 p k) = X (ix2 P k))
    (h1 : ∀ (p : Fin 5000) (k : Fin 64) (P : Fin 50000), P.val = r * 5000 + p.val → x1 (ix2 p k) = MEAN (ix2 P k))
    (h2 : ∀ (k : Fin 64) (n : Fin 128), x2 (ix2 k n) = WL (ix2 n k))
    (h3 : ∀ (k : Fin 64) (n : Fin 128), x3 (ix2 k n) = WR (ix2 n k))
    (h4 : ∀ n : Fin 128, x4 (ix1 n) = BL (ix1 n)) :
    k0_pay1 (F := Ideal) x0 x1 x2 x3 x4 y = combine X MEAN WL WR BL i := by
  obtain ⟨p, n, rfl⟩ : ∃ (p : Fin 5000) (n : Fin 128), y = ix2 p n := ⟨y 0, y 1, eq_ix2 y⟩
  obtain ⟨P, N, rfl⟩ : ∃ (P : Fin 50000) (N : Fin 128), i = ix2 P N := ⟨i 0, i 1, eq_ix2 i⟩
  have hN : N = n := Fin.ext hi1
  subst hN
  rw [Entry.pay_apply, combine_apply]
  refine congrArg₂ (· + ·) (congrArg₂ (· + ·) ?_ ?_) (h4 N)
  · exact Finset.sum_congr rfl fun k _ => by rw [h1 p k P hi0, h2 k N]
  · exact Finset.sum_congr rfl fun k _ => by rw [h0 p k P hi0, h3 k N]

/-- The body's result is its one store's value of the blocks it loads whole. -/
theorem out_eq (x0 x1 : Vec Ideal S5000x64 .f32) (x2 x3 : Vec Ideal S64x128 .f32) (x4 : Vec Ideal S128 .f32) :
    out0_5 (F := Ideal) x0 x1 x2 x3 x4 = k0_pay1 (F := Ideal) x0 x1 x2 x3 x4 := by
  unfold out0_5
  rw [View.canon_unit_zero zero_off2]
  simp only [View.ld_unit_zero (S := S5000x64) zero_off2, View.ld_unit_zero (S := S64x128) zero_off2,
    View.ld_unit_zero (S := S128) zero_off1]

/-- The neighbour means the region finds, entry by entry, are the reference's. -/
theorem mean_apply (c : Dev nD) (j : S50000x64.Idx) :
    V m c main_v22 j
      = Cert.ReferenceIdeal.Read.val_main_v21 (F := Ideal) (m ((c : Thread nD τ).loc main_arg0))
          (m ((c : Thread nD τ).loc main_arg1)) j :=
  congrFun ((HostValue.V_mean m c).trans (HostValue.kmean_eq _ _)) j

/-- The transposed first weight matrix the region finds at (k, n) is the weight at (n, k). -/
theorem wl_apply (c : Dev nD) (k : Fin 64) (n : Fin 128) :
    V m c main_v23 (ix2 k n) = m ((c : Thread nD τ).loc main_arg2) (ix2 n k) :=
  (congrFun (HostValue.V_wl m c) (ix2 k n)).trans (transpose_ix2_apply _ _ k n)

/-- The transposed second weight matrix the region finds at (k, n) is the weight at (n, k). -/
theorem wr_apply (c : Dev nD) (k : Fin 64) (n : Fin 128) :
    V m c main_v24 (ix2 k n) = m ((c : Thread nD τ).loc main_arg4) (ix2 n k) :=
  (congrFun (HostValue.V_wr m c) (ix2 k n)).trans (transpose_ix2_apply _ _ k n)

/-- The whole output: the combining step of the arguments as launched and the reference's neighbour means. -/
def result (c : Dev nD) : FVec Ideal S50000x128 .f32 :=
  combine (m ((c : Thread nD τ).loc main_arg0))
    (Cert.ReferenceIdeal.Read.val_main_v21 (F := Ideal) (m ((c : Thread nD τ).loc main_arg0)) (m ((c : Thread nD τ).loc main_arg1)))
    (m ((c : Thread nD τ).loc main_arg2)) (m ((c : Thread nD τ).loc main_arg4)) (m ((c : Thread nD τ).loc main_arg3))

/-- WHAT POINT t WRITES BACK is block t of the whole output. -/
theorem flushed_eq (c : Dev nD) (t : Fin cfg0.N) :
    (dats m 0 c).flushed 5 t = ((cfg0.win 5).blk t).view.read (Elt Ideal) (result m c) := by
  rw [Value.flushed5]
  funext y
  refine Eq.trans ?_ (Blocks.out_read (result m c) t y).symm
  refine Eq.trans (congrFun (congrArg ((cfg0.win 5).cut (grid0.coords t))
    (out_eq (iblk m c 0 t) (iblk m c 1 t) (iblk m c 2 t) (iblk m c 3 t) (iblk m c 4 t))) y) ?_
  unfold result
  exact block_entry (m ((c : Thread nD τ).loc main_arg0))
    (Cert.ReferenceIdeal.Read.val_main_v21 (F := Ideal) (m ((c : Thread nD τ).loc main_arg0)) (m ((c : Thread nD τ).loc main_arg1)))
    (m ((c : Thread nD τ).loc main_arg2)) (m ((c : Thread nD τ).loc main_arg4)) (m ((c : Thread nD τ).loc main_arg3))
    (iblk m c 0 t) (iblk m c 1 t) (iblk m c 2 t) (iblk m c 3 t) (iblk m c 4 t) t.val
    ((cfg0.win 5).xinj (grid0.coords t) y) (((cfg0.win 5).blk t).view.emb y)
    (Blocks.out_emb t y).1 (Blocks.out_emb t y).2
    (fun p k P hP => (Blocks.rows0 (V m c main_arg0) t p k P hP).trans (congrFun (V_main_arg0 m c) (ix2 P k)))
    (fun p k P hP => (Blocks.rows1 (V m c main_v22) t p k P hP).trans (mean_apply m c (ix2 P k)))
    (fun k n => (Blocks.whole2 (V m c main_v23) t k n).trans (wl_apply m c k n))
    (fun k n => (Blocks.whole3 (V m c main_v24) t k n).trans (wr_apply m c k n))
    (fun n => (Blocks.whole4 (V m c main_arg3) t n).trans (congrFun (V_main_arg3 m c) (ix1 n)))

/-- THE OUTPUT ARRAY after the run is the combining step of the whole arrays. -/
theorem final (c : Dev nD) : (dats m 0 c).arrAt 5 cfg0.N = result m c :=
  (dats m 0 c).arrAt_eq_of_cover 5 (result m c) (fun t _ => flushed_eq m c t) Blocks.cover

/-- The kernel's run, its result array named: every weakly fair execution ends with the output at the combining step
    of the arguments and the arguments unchanged. -/
theorem run : θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefCombine.lean ====
/-
  The reference program's result, entry by entry, is the combining step of Combine.lean applied to the node features,
  the reference's own matrix of neighbour means, the two weight matrices and the bias. The reference multiplies by the
  TRANSPOSED weights, so its sums run over wl[n, k] and wr[n, k], and it adds the bias between the two products where
  the specification adds it last.
-/
import proofs.«163744_j60112362275091_1_alg».proof.Proof.Gen.ReferenceIdeal.Read
import proofs.«163744_j60112362275091_1_alg».proof.Proof.Combine

noncomputable section

namespace Cert.ReferenceIdeal.RefValue

open Cert.ReferenceIdeal Cert.ReferenceIdeal.Gen Cert.ReferenceIdeal.Read Idealize.ShloMosaic Idealize.ShloMosaic.ValueIdx
open Cert.SageCombine

/-- Row p of the left factor, column k: the index both products read their left operand at. -/
theorem lidx23 (i : S50000x128.Idx) (k : Fin 64) : lidx_main_v23 i k = ix2 (i 0) k :=
  funext fun a => by match a with | ⟨0, _⟩ => rfl | ⟨1, _⟩ => rfl

theorem lidx28 (i : S50000x128.Idx) (k : Fin 64) : lidx_main_v28 i k = ix2 (i 0) k :=
  funext fun a => by match a with | ⟨0, _⟩ => rfl | ⟨1, _⟩ => rfl

/-- The transposed weight at (k, n) is the weight at (n, k). -/
theorem ridx23 (i : S50000x128.Idx) (k : Fin 64) : idx_main_v22 (ridx_main_v23 i k) = ix2 (i 1) k :=
  funext fun a => by match a with | ⟨0, _⟩ => rfl | ⟨1, _⟩ => rfl

theorem ridx28 (i : S50000x128.Idx) (k : Fin 64) : idx_main_v27 (ridx_main_v28 i k) = ix2 (i 1) k :=
  funext fun a => by match a with | ⟨0, _⟩ => rfl | ⟨1, _⟩ => rfl

/-- The bias broadcast over the rows reads the bias at the entry's channel. -/
theorem bidx (i : S50000x128.Idx) : idx_main_v24 (idx_main_v25 i) = ix1 (i 1) :=
  funext fun a => by match a with | ⟨0, _⟩ => rfl

/-- The reference's result is the combining step over its own neighbour means. -/
theorem result_eq (x0 : FVec Ideal S50000x64 .f32) (x1 : (⟨S2x800000, .i32⟩ : BufTy).Contents (Elt Ideal))
    (x2 : FVec Ideal S128x64 .f32) (x3 : FVec Ideal S128 .f32) (x4 : FVec Ideal S128x64 .f32) :
    val_main_v29 (F := Ideal) x0 x1 x2 x3 x4 = combine x0 (val_main_v21 (F := Ideal) x0 x1) x2 x4 x3 := by
  funext i
  rw [val_main_v29_apply, val_main_v26_apply, val_main_v23_apply, val_main_v25_apply, val_main_v24_apply,
    val_main_v28_apply]
  simp only [val_main_v22_apply, val_main_v27_apply, lidx23, lidx28, ridx23, ridx28, bidx]
  exact bias_last _ _ _

end Cert.ReferenceIdeal.RefValue

end
-- ==== Proof.Claims.lean ====
/-
  The five claims. The three frames: the kernel's two printed forms run to the end without a fault and leave the
  arguments as they were (the generated frame runs), and so does the reference (its generated run, the result
  dropped). The kernel's idealized form rewrites no operation, so there is nothing to preserve. The two idealized
  programs agree: the kernel's output array ends at the combining step of Combine.lean over the reference's own
  neighbour means (KernelWhole.lean), the reference's result is that same function of its arguments (RefCombine.lean),
  and the two memories agree on the arguments.
-/
import proofs.«163744_j60112362275091_1_alg».proof.Defs
import proofs.«163744_j60112362275091_1_alg».proof.Proof.Gen.Kernel.Frame
import proofs.«163744_j60112362275091_1_alg».proof.Proof.Gen.KernelIdeal.Frame
import proofs.«163744_j60112362275091_1_alg».proof.Proof.Gen.Pre_finite_inputs
import proofs.«163744_j60112362275091_1_alg».proof.Proof.KernelWhole
import proofs.«163744_j60112362275091_1_alg».proof.Proof.RefCombine

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the combining step of the same five arrays. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.result_eq, (hagree c).1, (hagree c).2.1,
    (hagree c).2.2.1, (hagree c).2.2.2.1, (hagree c).2.2.2.2]
  rfl

end Cert.Proof.Claims

end
-- ==== Proof.lean ====
/-
  One GraphSAGE layer with mean aggregation: the kernel gathers, sums and averages the neighbours' features on the
  host and combines the means and the node's own features with two matrix products and a bias in a ten-point grid;
  the reference computes the same means and the same three terms on the host. On the extended reals every entry of
  either result is (∑ₖ mean[p, k]·W_l[n, k] + ∑ₖ x[p, k]·W_r[n, k]) + b_l[n] up to the order of the two additions,
  which does not matter there. The claims are proved in Proof/Claims.lean; this file joins them under the programs'
  stated side conditions.
-/
import proofs.«163744_j60112362275091_1_alg».proof.Defs
import proofs.«163744_j60112362275091_1_alg».proof.Proof.Gen.Kernel
import proofs.«163744_j60112362275091_1_alg».proof.Proof.Gen.Kernel.Skeleton
import proofs.«163744_j60112362275091_1_alg».proof.Proof.Gen.Kernel.Launch
import proofs.«163744_j60112362275091_1_alg».proof.Proof.Gen.Kernel.Points
import proofs.«163744_j60112362275091_1_alg».proof.Proof.Gen.Kernel.Frame
import proofs.«163744_j60112362275091_1_alg».proof.Proof.Gen.KernelIdeal
import proofs.«163744_j60112362275091_1_alg».proof.Proof.Gen.KernelIdeal.Skeleton
import proofs.«163744_j60112362275091_1_alg».proof.Proof.Gen.KernelIdeal.Launch
import proofs.«163744_j60112362275091_1_alg».proof.Proof.Gen.KernelIdeal.Points
import proofs.«163744_j60112362275091_1_alg».proof.Proof.Gen.KernelIdeal.Frame
import proofs.«163744_j60112362275091_1_alg».proof.Proof.Gen.ReferenceIdeal
import proofs.«163744_j60112362275091_1_alg».proof.Proof.Gen.Pre_finite_inputs
import proofs.«163744_j60112362275091_1_alg».proof.Proof.Gen.KernelIdeal.Value
import proofs.«163744_j60112362275091_1_alg».proof.Proof.Gen.ReferenceIdeal.Run
import proofs.«163744_j60112362275091_1_alg».proof.Proof.Gen.ReferenceIdeal.Read
import proofs.«163744_j60112362275091_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
